-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_arg0)) (v2 : (c : Dev Cert.KernelIdeal.nD) → Buf (Elt Ideal) ((c.tc : Thread Cert.KernelIdeal.nD Cert.KernelIdeal.τ).loc Cert.KernelIdeal.main_v13_1)) (v3 : (c : Dev Cert.KernelIdeal.nD) → Buf (Elt Ideal) ((c.tc : Thread Cert.KernelIdeal.nD Cert.KernelIdeal.τ).loc Cert.KernelIdeal.main_v13_2)) (v4 : (c : Dev Cert.KernelIdeal.nD) → Buf (Elt Ideal) ((c.tc : Thread Cert.KernelIdeal.nD Cert.KernelIdeal.τ).loc Cert.KernelIdeal.main_v13_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_arg0) = v1 c
          ∧ r.2.mem ((c.tc : Thread Cert.KernelIdeal.nD Cert.KernelIdeal.τ).loc Cert.KernelIdeal.main_v13_1) = v2 c
          ∧ r.2.mem ((c.tc : Thread Cert.KernelIdeal.nD Cert.KernelIdeal.τ).loc Cert.KernelIdeal.main_v13_2) = v3 c
          ∧ r.2.mem ((c.tc : Thread Cert.KernelIdeal.nD Cert.KernelIdeal.τ).loc Cert.KernelIdeal.main_v13_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v56) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024 : Shape := ⟨1, ![1024]⟩
abbrev S1024x1024 : Shape := ⟨2, ![1024, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024x1024 .f32) (main_arg12 : FVec F S1024x1024 .f32) (main_arg13 : FVec F S1024x1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_v63 main_v67

def fn_part2 {F : FTy → Type} [FloatOps F] (main_arg7 : FVec F S1024 .f32) (main_arg8 : FVec F S1024 .f32) (main_arg9 : FVec F S1024 .f32) (main_arg10 : FVec F S1024x1024 .f32) (main_arg11 : FVec F S1024x1024 .f32) (main_arg12 : FVec F S1024x1024 .f32) (main_arg13 : FVec F S1024x1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S16384x1024 .f32) (main_arg5 : FVec F S1024 .f32) (main_arg6 : FVec F S1024 .f32) (main_arg7 : FVec F S1024 .f32) (main_arg8 : FVec F S1024 .f32) (main_arg9 : FVec F S1024 .f32) (main_arg10 : FVec F S1024x1024 .f32) (main_arg11 : FVec F S1024x1024 .f32) (main_arg12 : FVec F S1024x1024 .f32) (main_arg13 : FVec F S1024x1024 .f32) (main_v13 : IVec S_ 1) (main_v16 : IVec S16384x1024 1) : IVec S_ 1 :=
  let main_c_5 : IVec S_ 1 := constantI S_ 1 1#1
  let main_v17 : IVec S_ 1 := (fun x v => Host.reduce IntOp.andi x v reducesTo_S16384x1024_S_d0_1 h_S_) main_v16 main_c_5
  let main_v18 : IVec S_ 1 := andi main_v13 main_v17
  let main_v19 : FVec F S16384x1024 .f32 := Host.absf main_arg4
  let main_cst_6 : FVec F S_ .f32 := constant S_ .f32 0x7F800000#32
  let main_v20 : FVec F S16384x1024 .f32 := broadcastInDim S16384x1024 ![] bcast_S_S16384x1024 main_cst_6
  let main_v21 : IVec S16384x1024 1 := cmpf .olt main_v19 main_v20
  let main_c_7 : IVec S_ 1 := constantI S_ 1 1#1
  let main_v22 : IVec S_ 1 := (fun x v => Host.reduce IntOp.andi x v reducesTo_S16384x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S16384x1024 .f32) (main_arg1 : FVec F S16384x1024 .f32) (main_arg2 : FVec F S16384x1024 .f32) (main_arg3 : FVec F S16384x1024 .f32) (main_arg4 : FVec F S16384x1024 .f32) (main_arg5 : FVec F S1024 .f32) (main_arg6 : FVec F S1024 .f32) (main_arg7 : FVec F S1024 .f32) (main_arg8 : FVec F S1024 .f32) (main_arg9 : FVec F S1024 .f32) (main_arg10 : FVec F S1024x1024 .f32) (main_arg11 : FVec F S1024x1024 .f32) (main_arg12 : FVec F S1024x1024 .f32) (main_arg13 : FVec F S1024x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S16384x1024 .f32 := Host.absf main_arg3
  let main_cst_4 : FVec F S_ .f32 := constant S_ .f32 0x7F800000#32
  let main_v15 : FVec F S16384x1024 .f32 := broadcastInDim S16384x1024 ![] bcast_S_S16384x1024 main_cst_4
  let main_v16 : IVec S16384x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S128x1024 : Shape := ⟨2, ![128, 1024]⟩

abbrev nBuf : Space → Nat
  | .hbm => 31
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13_0 : Ref sig .tc := ⟨.hbm, 27, rfl⟩
abbrev main_v13_1 : Ref sig .tc := ⟨.hbm, 28, rfl⟩
abbrev main_v13_2 : Ref sig .tc := ⟨.hbm, 29, rfl⟩
abbrev main_v13_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S128x1024_S128x1024_0_0 : ∀ a, (![0, 0] : Fin 2 → Nat) a + S128x1024.size a ≤ S128x1024.size a
  h_S128x1024 : 0 < S128x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S16384x1024.size a
  hwx0_0 : ∀ i : grid0.Coords, EltTy.bits .f32 = 32 ∨ (Rect.block (s := S16384x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S16384x1024.size a
  hwx0_1 : ∀ i : grid0.Coords, EltTy.bits .f32 = 32 ∨ (Rect.block (s := S16384x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S16384x1024.size a
  hwx0_2 : ∀ i : grid0.Coords, EltTy.bits .f32 = 32 ∨ (Rect.block (s := S16384x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S16384x1024.size a
  hwx0_3 : ∀ i : grid0.Coords, EltTy.bits .f32 = 32 ∨ (Rect.block (s := S16384x1024) S128x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1024.size a ≤ S16384x1024.size a
  hwx0_4 : ∀ i : grid0.Coords, EltTy.bits .f32 = 32 ∨ (Rect.block (s := S16384x1024) S128x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x1024.size a ≤ S1024x1024.size a
  hwx0_10 : ∀ i : grid0.Coords, EltTy.bits .bf16 = 32 ∨ (Rect.block (s := S1024x1024) S1024x1024.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1024.size a ≤ S1024x1024.size a
  hwx0_11 : ∀ i : grid0.Coords, EltTy.bits .bf16 = 32 ∨ (Rect.block (s := S1024x1024) S1024x1024.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1024x1024.size a ≤ S1024x1024.size a
  hwx0_12 : ∀ i : grid0.Coords, EltTy.bits .bf16 = 32 ∨ (Rect.block (s := S1024x1024) S1024x1024.size (cc0_transform_12 i) (hinb0_12 i)).WholeWords (EltTy.packing .bf16)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1024x1024.size a ≤ S1024x1024.size a
  hwx0_13 : ∀ i : grid0.Coords, EltTy.bits .bf16 = 32 ∨ (Rect.block (s := S1024x1024) S1024x1024.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x1024.size a ≤ S16384x1024.size a
  hwx0_14 : ∀ i : grid0.Coords, EltTy.bits .f32 = 32 ∨ (Rect.block (s := S16384x1024) S128x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x1024.size a ≤ S16384x1024.size a
  hwx0_15 : ∀ i : grid0.Coords, EltTy.bits .f32 = 32 ∨ (Rect.block (s := S16384x1024) S128x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x1024.size a ≤ S16384x1024.size a
  hwx0_16 : ∀ i : grid0.Coords, EltTy.bits .f32 = 32 ∨ (Rect.block (s := S16384x1024) S128x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S128x1024.size a ≤ S16384x1024.size a
  hwx0_17 : ∀ i : grid0.Coords, EltTy.bits .f32 = 32 ∨ (Rect.block (s := S16384x1024) S128x1024.size (cc0_transform_17 i) (hinb0_17 i)).WholeWords (EltTy.packing .f32)

variable [Facts₀]

def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v1) S1024x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S1024x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1024x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1024x1024.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13_0) S128x1024.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v13_1) S128x1024.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v13_2) S128x1024.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v13_3) S128x1024.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩

abbrev nBuf : Space → Nat
  | .hbm => 88
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S_, .f32⟩
  | .hbm, ⟨18, _⟩ => ⟨S1024, .f32⟩
  | .hbm, ⟨19, _⟩ => ⟨S1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S1024, .f32⟩
  | .hbm, ⟨39, _⟩ => ⟨S1024, .f32⟩
  | .hbm, ⟨40, _⟩ => ⟨S1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S1024x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S_, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S1024x1024, .f32⟩
  | .hbm, ⟨55, _⟩ => ⟨S16384x1024, .f32⟩
  | .hbm, ⟨56, _⟩ => ⟨S1024x1024, .f32⟩
  | .hbm, ⟨57, _⟩ => ⟨S16384x1024, .f32⟩
  | .hbm, ⟨58, _⟩ => ⟨S1x1024, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S16384x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S16384x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S1024x1024, .f32⟩
  | .hbm, ⟨87, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S1024 : S_.BroadcastsInDim S1024 (![] : Fin 0 → Fin S1024.rank)
  transposes_S1024x1024_S1024x1024_1_0 : S1024x1024.Transposes [1, 0] S1024x1024
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.TimeMix.lean ====
/-
  One step of the time-mixing recurrence, stated row by row over the extended reals.

  A row of the batch carries the current input `x`, the previous input `a`, the running numerator `aa`, the running
  denominator `bb` and the running exponent `pp`, each a vector over the 1024 channels. Three mixed rows
  `x·t + a·(1 − t)` (one per mixing weight `t`) go through three linear layers to the key `k`, the value `v` and the
  receptance `r`. With `ww = first + k` and `q = max pp ww` the weighted average is
  `(e^(pp−q)·aa + e^(ww−q)·v) / (e^(pp−q)·bb + e^(ww−q))`; it is gated by the logistic of `r` and sent through a fourth
  linear layer. With `ww₂ = pp + decay` and `q₂ = max ww₂ k` the next state is `e^(ww₂−q₂)·aa + e^(k−q₂)·v`,
  `e^(ww₂−q₂)·bb + e^(k−q₂)` and `q₂`.

  A linear layer is given as `w k q`, the weight from input channel `k` to output channel `q`; entry `q` of the layer's
  result on a row `y` is the plain sum over `k` of `y k · w k q`. Nothing here needs the entries to be finite: the two
  programs compared against this statement compute these very expressions, in the same order.
-/
import Idealize.ShloMosaic.PureOps.Ideal.Laws
import Idealize.ShloMosaic.Lib.IdealHost
import Idealize.ShloMosaic.Lib.ValueIdx

noncomputable section

open scoped BigOperators

namespace TimeMix

open Idealize.ShloMosaic Idealize.ShloMosaic.ValueIdx

/-- A row over the channels. -/
abbrev Row := Fin 1024 → EReal
/-- A linear layer: `w k q` is the weight from input channel `k` to output channel `q`. -/
abbrev Lin := Fin 1024 → Fin 1024 → EReal

/-- The number one, as the single-precision word both programs write for it. -/
abbrev one : EReal := Ideal.ofBits .f32 0x3F800000#32

/-- The current and the previous input mixed by a channel's weight: `x·t + a·(1 − t)`. -/
def mix (x a t : EReal) : EReal := x * t + a * (one - t)

/-- Entry `q` of a linear layer applied to the row mixed by `t`. -/
def lin (x a t : Row) (w : Lin) (q : Fin 1024) : EReal := ∑ k : Fin 1024, mix (x k) (a k) (t k) * w k q

/-- The weighted average of the running state and the new value, stabilised by the larger exponent. -/
def wkv (pp aa bb ww v : EReal) : EReal :=
  Ideal.div (Ideal.exp (pp - max pp ww) * aa + Ideal.exp (ww - max pp ww) * v)
    (Ideal.exp (pp - max pp ww) * bb + Ideal.exp (ww - max pp ww))

/-- The next numerator, from the decayed exponent `ww₂`, the numerator, the key and the value. -/
def nextNum (ww₂ aa k v : EReal) : EReal := Ideal.exp (ww₂ - max ww₂ k) * aa + Ideal.exp (k - max ww₂ k) * v

/-- The next denominator. -/
def nextDen (ww₂ bb k : EReal) : EReal := Ideal.exp (ww₂ - max ww₂ k) * bb + Ideal.exp (k - max ww₂ k)

/-- Entry `q` of a row's next exponent: the larger of the decayed exponent and the key. -/
def expRow (x a pp decay tk : Row) (wk : Lin) (q : Fin 1024) : EReal := max (pp q + decay q) (lin x a tk wk q)

/-- Entry `q` of a row's next numerator. -/
def numRow (x a aa pp decay tk tv : Row) (wk wv : Lin) (q : Fin 1024) : EReal :=
  nextNum (pp q + decay q) (aa q) (lin x a tk wk q) (lin x a tv wv q)

/-- Entry `q` of a row's next denominator. -/
def denRow (x a bb pp decay tk : Row) (wk : Lin) (q : Fin 1024) : EReal :=
  nextDen (pp q + decay q) (bb q) (lin x a tk wk q)

/-- Channel `j` of a row's gated average: the logistic of the receptance times the weighted average. -/
def gate (x a aa bb pp first tk tv tr : Row) (wk wv wr : Lin) (j : Fin 1024) : EReal :=
  Ideal.logistic (lin x a tr wr j) * wkv (pp j) (aa j) (bb j) (first j + lin x a tk wk j) (lin x a tv wv j)

/-- Entry `q` of a row's output: the gated average through the output layer. -/
def outRow (x a aa bb pp first tk tv tr : Row) (wk wv wr wo : Lin) (q : Fin 1024) : EReal :=
  ∑ j : Fin 1024, gate x a aa bb pp first tk tv tr wk wv wr j * wo j q

/-- The logistic function spelt with the word for one: `1 / (1 + e^(−r))`. -/
theorem logistic_spelt (r : EReal) : Ideal.div one (one + Ideal.exp (-r)) = Ideal.logistic r := by
  show Ideal.div (Ideal.ofBits .f32 0x3F800000#32) (Ideal.ofBits .f32 0x3F800000#32 + Ideal.exp (-r)) = Ideal.logistic r
  rw [Ideal.ofBits_one_f32]; rfl

/-! ## The four result arrays, entry by entry

The batch arrays are given by coordinates, `X r k` the entry of row `r` at channel `k`. -/

/-- A batch array by coordinates. -/
abbrev Batch := Fin 16384 → Fin 1024 → EReal

/-- The array shape of a batch of rows. -/
abbrev SBatch : Shape := ⟨2, ![16384, 1024]⟩

/-- The next exponent, as an array. -/
def expArr (X A PP : Batch) (decay tk : Row) (wk : Lin) : SBatch.Idx → EReal :=
  fun i => expRow (X (i 0)) (A (i 0)) (PP (i 0)) decay tk wk (i 1)

/-- The next numerator, as an array. -/
def numArr (X A AA PP : Batch) (decay tk tv : Row) (wk wv : Lin) : SBatch.Idx → EReal :=
  fun i => numRow (X (i 0)) (A (i 0)) (AA (i 0)) (PP (i 0)) decay tk tv wk wv (i 1)

/-- The next denominator, as an array. -/
def denArr (X A BB PP : Batch) (decay tk : Row) (wk : Lin) : SBatch.Idx → EReal :=
  fun i => denRow (X (i 0)) (A (i 0)) (BB (i 0)) (PP (i 0)) decay tk wk (i 1)

/-- The output, as an array. -/
def outArr (X A AA BB PP : Batch) (first tk tv tr : Row) (wk wv wr wo : Lin) : SBatch.Idx → EReal :=
  fun i => outRow (X (i 0)) (A (i 0)) (AA (i 0)) (BB (i 0)) (PP (i 0)) first tk tv tr wk wv wr wo (i 1)

end TimeMix

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.BodyValue.lean ====
/-
  The values the kernel's body stores, read entry by entry at the extended reals.

  The body works on a block of 128 rows and all 1024 channels. Entry `(p, q)` of each stored block depends on row `p`
  of the five batch blocks only: the per-channel vectors arrive as blocks of one row, broadcast down the rows, and
  each matrix product contracts the channels of row `p` against a whole 1024 × 1024 block. A product into the zero
  accumulator is the plain sum over the contracted channel, and a change of float format is the identity, so each
  stored entry is the row statement of `TimeMix` at row `p` of the blocks.
-/
import proofs.«117996_j16183436772029_1_alg».proof.Proof.Gen.KernelIdeal.Skeleton
import proofs.«117996_j16183436772029_1_alg».proof.Proof.TimeMix
import proofs.«117996_j16183436772029_1_alg».proof.Proof.LibMatmulNN
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx

/-- A block of 128 rows of a batch array. -/
abbrev Blk := Vec Ideal S128x1024 .f32
/-- A per-channel vector, as a block of one row. -/
abbrev RowBlk := Vec Ideal S1x1024 .f32
/-- A linear layer's block: entry `(k, q)` is the weight from channel `k` to channel `q`. -/
abbrev LinBlk := Vec Ideal S1024x1024 .bf16

/-- Row `p` of a block. -/
abbrev rowOf (x : Blk) (p : Fin 128) : TimeMix.Row := fun k => x (ix2 p k)
/-- The one row of a per-channel block. -/
abbrev vecOf (t : RowBlk) : TimeMix.Row := fun k => t (ix2 (0 : Fin 1) k)
/-- A layer's block by coordinates. -/
abbrev linOf (w : LinBlk) : TimeMix.Lin := fun k q => w (ix2 k q)

/-- A block of one row broadcast down 128 rows reads, at `(p, k)`, the row's entry `k`. -/
theorem rowBroadcast_apply (u : FVec Ideal S1x1024 .f32) (p : Fin 128) (k : Fin 1024) :
    broadcastTo S128x1024 u broadcasts_S1x1024_S128x1024 (ix2 p k) = u (ix2 (0 : Fin 1) k) :=
  broadcastTo_apply u broadcasts_S1x1024_S128x1024 (ix2 p k) (ix2 (0 : Fin 1) k) (fun a => match a with
    | ⟨0, _⟩ => by show 0 = (if (1 : Nat) = 1 then 0 else p.val); rw [if_pos rfl]
    | ⟨1, _⟩ => by show k.val = (if (1024 : Nat) = 1 then 0 else k.val); rw [if_neg (by decide)])

theorem exp_apply {s : Shape} {φ : FTy} (a : FVec Ideal s φ) (i : s.Idx) : exp a i = Ideal.exp (a i) := rfl
theorem logistic_apply {s : Shape} {φ : FTy} (a : FVec Ideal s φ) (i : s.Idx) : logistic a i = Ideal.logistic (a i) := rfl

/-- The product of a block of rows (narrowed to sixteen bits, which changes nothing here) against a layer's block,
    into zero: entry `(p, q)` is the sum over the channel `k` of `y[p, k] · w[k, q]`. -/
theorem product_apply (y : FVec Ideal S128x1024 .f32) (w : LinBlk) (p : Fin 128) (q : Fin 1024) :
    matmul dot_S128x1024_S1024x1024_S128x1024_1_0_0_1_n_n none (truncf .bf16 y bitsLt_bf16_f32)
        (shapeCast S1024x1024 w shapeCasts_S1024x1024_S1024x1024 : FVec Ideal S1024x1024 .bf16)
        (constant S128x1024 .f32 0x00000000#32) (ix2 p q)
      = ∑ k : Fin 1024, y (ix2 p k) * w (ix2 k q) := by
  rw [shapeCast_self]
  exact LibMatmulNN.matmul_zero_apply 128 1024 1024 none (truncf .bf16 y bitsLt_bf16_f32) w p q

/-- The three mixed blocks are one expression of the two input blocks and a weight row. -/
theorem mixed_v (x a : Blk) (t : RowBlk) : k0_pay4 (F := Ideal) x a t = k0_pay3 x a t := rfl
theorem mixed_r (x a : Blk) (t : RowBlk) : k0_pay5 (F := Ideal) x a t = k0_pay3 x a t := rfl
theorem product_v (y : FVec Ideal S128x1024 .f32) (w : LinBlk) : k0_pay7 (F := Ideal) y w = k0_pay6 y w := rfl
theorem row_first (t : RowBlk) : k0_pay2 (F := Ideal) t = k0_pay1 t := rfl

/-- A mixed block at `(p, k)`: the two inputs of row `p` mixed by channel `k`'s weight. -/
theorem mixed_apply (x a : Blk) (t : RowBlk) (p : Fin 128) (k : Fin 1024) :
    k0_pay3 x a t (ix2 p k) = TimeMix.mix (x (ix2 p k)) (a (ix2 p k)) (t (ix2 (0 : Fin 1) k)) := by
  unfold k0_pay3
  show x (ix2 p k) * broadcastTo S128x1024 (shapeCast S1x1024 t shapeCasts_S1x1024_S1x1024 : FVec Ideal S1x1024 .f32) broadcasts_S1x1024_S128x1024 (ix2 p k)
      + a (ix2 p k) * broadcastTo S128x1024 (subf (F := Ideal) (broadcast S1x1024 (Scalar.ofBits (F := Ideal) .f32 0x3F800000#32))
          (shapeCast S1x1024 t shapeCasts_S1x1024_S1x1024)) broadcasts_S1x1024_S128x1024 (ix2 p k) = _
  rw [rowBroadcast_apply, rowBroadcast_apply, shapeCast_self]
  rfl

/-- A linear layer of a mixed block at `(p, q)`. -/
theorem lin_apply (x a : Blk) (t : RowBlk) (w : LinBlk) (p : Fin 128) (q : Fin 1024) :
    k0_pay6 (k0_pay3 x a t) w (ix2 p q) = TimeMix.lin (rowOf x p) (rowOf a p) (vecOf t) (linOf w) q := by
  unfold k0_pay6
  refine (product_apply (k0_pay3 x a t) w p q).trans ?_
  unfold TimeMix.lin
  refine Finset.sum_congr rfl fun k _ => ?_
  rw [mixed_apply]

/-- The decayed exponent at `(p, q)`. -/
theorem decayed_apply (pp : Blk) (td : RowBlk) (p : Fin 128) (q : Fin 1024) :
    k0_pay8 pp (k0_pay1 td) (ix2 p q) = pp (ix2 p q) + td (ix2 (0 : Fin 1) q) := by
  unfold k0_pay8 k0_pay1
  show pp (ix2 p q) + broadcastTo S128x1024 (shapeCast S1x1024 td shapeCasts_S1x1024_S1x1024 : FVec Ideal S1x1024 .f32) broadcasts_S1x1024_S128x1024 (ix2 p q) = _
  rw [rowBroadcast_apply, shapeCast_self]

/-- The stored next exponent at `(p, q)`. -/
theorem exp_block_apply (x a pp : Blk) (td tk : RowBlk) (wk : LinBlk) (p : Fin 128) (q : Fin 1024) :
    k0_pay9 pp (k0_pay1 td) (k0_pay3 x a tk) wk (ix2 p q)
      = TimeMix.expRow (rowOf x p) (rowOf a p) (rowOf pp p) (vecOf td) (vecOf tk) (linOf wk) q := by
  unfold k0_pay9
  show max (k0_pay8 pp (k0_pay1 td) (ix2 p q)) (k0_pay6 (k0_pay3 x a tk) wk (ix2 p q)) = _
  rw [decayed_apply, lin_apply]
  rfl

/-- The weight of the old state in the next one, at `(p, q)`. -/
theorem oldWeight_apply (x a pp : Blk) (td tk : RowBlk) (wk : LinBlk) (p : Fin 128) (q : Fin 1024) :
    k0_pay10 pp (k0_pay1 td) (k0_pay3 x a tk) wk (ix2 p q)
      = Ideal.exp ((pp (ix2 p q) + td (ix2 (0 : Fin 1) q))
          - max (pp (ix2 p q) + td (ix2 (0 : Fin 1) q)) (TimeMix.lin (rowOf x p) (rowOf a p) (vecOf tk) (linOf wk) q)) := by
  unfold k0_pay10
  show Ideal.exp (k0_pay8 pp (k0_pay1 td) (ix2 p q) - k0_pay9 pp (k0_pay1 td) (k0_pay3 x a tk) wk (ix2 p q)) = _
  rw [decayed_apply, exp_block_apply]
  rfl

/-- The weight of the new value in the next state, at `(p, q)`. -/
theorem newWeight_apply (x a pp : Blk) (td tk : RowBlk) (wk : LinBlk) (p : Fin 128) (q : Fin 1024) :
    k0_pay11 pp (k0_pay1 td) (k0_pay3 x a tk) wk (ix2 p q)
      = Ideal.exp (TimeMix.lin (rowOf x p) (rowOf a p) (vecOf tk) (linOf wk) q
          - max (pp (ix2 p q) + td (ix2 (0 : Fin 1) q)) (TimeMix.lin (rowOf x p) (rowOf a p) (vecOf tk) (linOf wk) q)) := by
  unfold k0_pay11
  show Ideal.exp (k0_pay6 (k0_pay3 x a tk) wk (ix2 p q) - k0_pay9 pp (k0_pay1 td) (k0_pay3 x a tk) wk (ix2 p q)) = _
  rw [lin_apply, exp_block_apply]
  rfl

/-- The stored next numerator at `(p, q)`. -/
theorem num_block_apply (x a aa pp : Blk) (td tk tv : RowBlk) (wk wv : LinBlk) (p : Fin 128) (q : Fin 1024) :
    k0_pay12 aa pp (k0_pay1 td) (k0_pay3 x a tk) (k0_pay4 x a tv) wk wv (ix2 p q)
      = TimeMix.numRow (rowOf x p) (rowOf a p) (rowOf aa p) (rowOf pp p) (vecOf td) (vecOf tk) (vecOf tv) (linOf wk) (linOf wv) q := by
  unfold k0_pay12
  show k0_pay10 pp (k0_pay1 td) (k0_pay3 x a tk) wk (ix2 p q) * aa (ix2 p q)
      + k0_pay11 pp (k0_pay1 td) (k0_pay3 x a tk) wk (ix2 p q) * k0_pay7 (k0_pay4 x a tv) wv (ix2 p q) = _
  rw [oldWeight_apply, newWeight_apply, product_v, mixed_v, lin_apply]
  rfl

/-- The stored next denominator at `(p, q)`. -/
theorem den_block_apply (x a bb pp : Blk) (td tk : RowBlk) (wk : LinBlk) (p : Fin 128) (q : Fin 1024) :
    k0_pay13 bb pp (k0_pay1 td) (k0_pay3 x a tk) wk (ix2 p q)
      = TimeMix.denRow (rowOf x p) (rowOf a p) (rowOf bb p) (rowOf pp p) (vecOf td) (vecOf tk) (linOf wk) q := by
  unfold k0_pay13
  show k0_pay10 pp (k0_pay1 td) (k0_pay3 x a tk) wk (ix2 p q) * bb (ix2 p q)
      + k0_pay11 pp (k0_pay1 td) (k0_pay3 x a tk) wk (ix2 p q) = _
  rw [oldWeight_apply, newWeight_apply]
  rfl

/-- A per-channel block of one row, broadcast down the rows, at `(p, j)`. -/
theorem row_apply (t : RowBlk) (p : Fin 128) (j : Fin 1024) :
    broadcastTo S128x1024 (k0_pay1 t) broadcasts_S1x1024_S128x1024 (ix2 p j) = t (ix2 (0 : Fin 1) j) := by
  unfold k0_pay1
  rw [rowBroadcast_apply, shapeCast_self]

/-- The gated average of blocks, at an entry: every operation in it acts entry by entry. Here `F` is the first-step
    bonus, `K`, `V` and `R` the key, value and receptance blocks. -/
theorem gate_pointwise (aa bb pp : Blk) (F K V R : FVec Ideal S128x1024 .f32) (i : S128x1024.Idx) :
    mulf (logistic R)
        (divf (addf (mulf (exp (subf pp (maximumf pp (addf F K)))) aa) (mulf (exp (subf (addf F K) (maximumf pp (addf F K)))) V))
          (addf (mulf (exp (subf pp (maximumf pp (addf F K)))) bb) (exp (subf (addf F K) (maximumf pp (addf F K)))))) i
      = Ideal.logistic (R i) * TimeMix.wkv (pp i) (aa i) (bb i) (F i + K i) (V i) := rfl

/-- The stored output at `(p, q)`. -/
theorem out_block_apply (x a aa bb pp : Blk) (tf tk tv tr : RowBlk) (wk wv wr wo : LinBlk) (p : Fin 128) (q : Fin 1024) :
    k0_pay14 aa bb pp (k0_pay2 tf) (k0_pay3 x a tk) (k0_pay4 x a tv) (k0_pay5 x a tr) wk wv wr wo (ix2 p q)
      = TimeMix.outRow (rowOf x p) (rowOf a p) (rowOf aa p) (rowOf bb p) (rowOf pp p) (vecOf tf) (vecOf tk) (vecOf tv) (vecOf tr)
          (linOf wk) (linOf wv) (linOf wr) (linOf wo) q := by
  unfold k0_pay14
  refine (product_apply _ wo p q).trans ?_
  unfold TimeMix.outRow
  refine Finset.sum_congr rfl fun j _ => ?_
  congr 1
  refine (gate_pointwise aa bb pp (broadcastTo S128x1024 (k0_pay1 tf) broadcasts_S1x1024_S128x1024)
    (k0_pay6 (k0_pay3 x a tk) wk) (k0_pay6 (k0_pay3 x a tv) wv) (k0_pay6 (k0_pay3 x a tr) wr) (ix2 p j)).trans ?_
  rw [lin_apply, lin_apply, lin_apply, row_apply]
  rfl

end Cert.KernelIdeal.Body

end
-- ==== Proof.KernelArrays.lean ====
/-
  From blocks to arrays: the kernel's four result arrays as whole-array functions of its arguments.

  The grid has 128 points. Point `t` works on rows `128·t … 128·t + 127` of the five batch arrays and of the four
  results, and on the whole of every per-channel vector and weight matrix; before the grid starts each vector has been
  reshaped to one row and each weight matrix transposed (and narrowed to sixteen bits, which changes nothing at the
  extended reals). So block `t` of a batch array, at `(p, k)`, is the array at `(128·t + p, k)`; a vector's block at
  `(0, k)` is the vector at `k`; a matrix's block at `(k, q)` is the matrix at `(q, k)`. What point `t` writes back is the
  row statement at these rows, which is block `t` of one function of the arguments; the 128 blocks tile the result, row
  `i` lying in the block of point `i / 128`, so each result array is that function.
-/
import proofs.«117996_j16183436772029_1_alg».proof.Proof.ValuePatched
import proofs.«117996_j16183436772029_1_alg».proof.Proof.BodyValue
import Idealize.ShloMosaic.Lib.StableHlo.Run
import Idealize.ShloMosaic.Lib.ValueLayout

noncomputable section

namespace Cert.KernelIdeal.Arrays

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- A batch array by coordinates. -/
abbrev batchOf (X : S16384x1024.Idx → EReal) : TimeMix.Batch := fun r k => X (ix2 r k)
/-- A per-channel vector by its channel. -/
abbrev vecOf (t : S1024.Idx → EReal) : TimeMix.Row := fun k => t (ix1 k)
/-- A weight matrix as the layer it defines: the transpose, by coordinates. -/
abbrev linOf (W : S1024x1024.Idx → EReal) : TimeMix.Lin := fun k q => W (ix2 q k)

theorem hz : (![0, 0] : Fin 2 → Nat) = fun _ => 0 := funext fun a => by fin_cases a <;> rfl

/-- There are 128 grid points. -/
theorem point_lt (t : Fin cfg0.N) : t.val < 128 := lt_of_lt_of_eq t.isLt N_0

/-- The array row that row `p` of point `t`'s block is. -/
def rowAt (t : Fin cfg0.N) (p : Fin 128) : Fin 16384 :=
  ⟨t.val * 128 + p.val, by have := point_lt t; have := p.isLt; omega⟩

/-- The grid point whose block holds an array index: its row divided by the block height. -/
def pointOf (i : S16384x1024.Idx) : Fin cfg0.N :=
  ⟨(i 0).val / 128, by have h0 : (i 0).val < 16384 := (i 0).isLt; show _ < grid0.N; rw [N_0]; omega⟩

/-! ## The block index of every window, decided over the 128 points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx14 : ∀ t : Fin cfg0.N, win0_14.index t (0 : Fin 2) = t.val ∧ win0_14.index t (1 : Fin 2) = 0 :=
  (by decide +kernel : ∀ t : Fin grid0.N, _)
theorem idx15 : ∀ t : Fin cfg0.N, win0_15.index t (0 : Fin 2) = t.val ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)

/-! ## What each input window's block holds -/

/-- Row `p` of point `t`'s block of argument 0 is row `128·t + p` of the argument. -/
theorem batch_in0 (c : Dev nD) (t : Fin cfg0.N) (p : Fin 128) :
    Body.rowOf (iblk m c 0 t) p = batchOf (m ((c : Thread nD τ).loc main_arg0)) (rowAt t p) := by
  funext k
  have h : ((cfg0.win 0).blk t).view.emb (ix2 p k) = ix2 (rowAt t p) k := by
    have e := idx0 t
    funext a; apply Fin.ext
    match a with
    | ⟨0, _⟩ => show win0_0.index t (0 : Fin 2) * 128 + 1 * p.val = t.val * 128 + p.val; rw [e.1]; omega
    | ⟨1, _⟩ => show win0_0.index t (1 : Fin 2) * 1024 + 1 * k.val = k.val; rw [e.2]; omega
  show V m c main_arg0 (((cfg0.win 0).blk t).view.emb (ix2 p k)) = m ((c : Thread nD τ).loc main_arg0) (ix2 (rowAt t p) k)
  rw [h, V_main_arg0 m c]

/-- Row `p` of point `t`'s block of argument 1 is row `128·t + p` of the argument. -/
theorem batch_in1 (c : Dev nD) (t : Fin cfg0.N) (p : Fin 128) :
    Body.rowOf (iblk m c 1 t) p = batchOf (m ((c : Thread nD τ).loc main_arg1)) (rowAt t p) := by
  funext k
  have h : ((cfg0.win 1).blk t).view.emb (ix2 p k) = ix2 (rowAt t p) k := by
    have e := idx1 t
    funext a; apply Fin.ext
    match a with
    | ⟨0, _⟩ => show win0_1.index t (0 : Fin 2) * 128 + 1 * p.val = t.val * 128 + p.val; rw [e.1]; omega
    | ⟨1, _⟩ => show win0_1.index t (1 : Fin 2) * 1024 + 1 * k.val = k.val; rw [e.2]; omega
  show V m c main_arg1 (((cfg0.win 1).blk t).view.emb (ix2 p k)) = m ((c : Thread nD τ).loc main_arg1) (ix2 (rowAt t p) k)
  rw [h, V_main_arg1 m c]

/-- Row `p` of point `t`'s block of argument 2 is row `128·t + p` of the argument. -/
theorem batch_in2 (c : Dev nD) (t : Fin cfg0.N) (p : Fin 128) :
    Body.rowOf (iblk m c 2 t) p = batchOf (m ((c : Thread nD τ).loc main_arg2)) (rowAt t p) := by
  funext k
  have h : ((cfg0.win 2).blk t).view.emb (ix2 p k) = ix2 (rowAt t p) k := by
    have e := idx2 t
    funext a; apply Fin.ext
    match a with
    | ⟨0, _⟩ => show win0_2.index t (0 : Fin 2) * 128 + 1 * p.val = t.val * 128 + p.val; rw [e.1]; omega
    | ⟨1, _⟩ => show win0_2.index t (1 : Fin 2) * 1024 + 1 * k.val = k.val; rw [e.2]; omega
  show V m c main_arg2 (((cfg0.win 2).blk t).view.emb (ix2 p k)) = m ((c : Thread nD τ).loc main_arg2) (ix2 (rowAt t p) k)
  rw [h, V_main_arg2 m c]

/-- Row `p` of point `t`'s block of argument 3 is row `128·t + p` of the argument. -/
theorem batch_in3 (c : Dev nD) (t : Fin cfg0.N) (p : Fin 128) :
    Body.rowOf (iblk m c 3 t) p = batchOf (m ((c : Thread nD τ).loc main_arg3)) (rowAt t p) := by
  funext k
  have h : ((cfg0.win 3).blk t).view.emb (ix2 p k) = ix2 (rowAt t p) k := by
    have e := idx3 t
    funext a; apply Fin.ext
    match a with
    | ⟨0, _⟩ => show win0_3.index t (0 : Fin 2) * 128 + 1 * p.val = t.val * 128 + p.val; rw [e.1]; omega
    | ⟨1, _⟩ => show win0_3.index t (1 : Fin 2) * 1024 + 1 * k.val = k.val; rw [e.2]; omega
  show V m c main_arg3 (((cfg0.win 3).blk t).view.emb (ix2 p k)) = m ((c : Thread nD τ).loc main_arg3) (ix2 (rowAt t p) k)
  rw [h, V_main_arg3 m c]

/-- Row `p` of point `t`'s block of argument 4 is row `128·t + p` of the argument. -/
theorem batch_in4 (c : Dev nD) (t : Fin cfg0.N) (p : Fin 128) :
    Body.rowOf (iblk m c 4 t) p = batchOf (m ((c : Thread nD τ).loc main_arg4)) (rowAt t p) := by
  funext k
  have h : ((cfg0.win 4).blk t).view.emb (ix2 p k) = ix2 (rowAt t p) k := by
    have e := idx4 t
    funext a; apply Fin.ext
    match a with
    | ⟨0, _⟩ => show win0_4.index t (0 : Fin 2) * 128 + 1 * p.val = t.val * 128 + p.val; rw [e.1]; omega
    | ⟨1, _⟩ => show win0_4.index t (1 : Fin 2) * 1024 + 1 * k.val = k.val; rw [e.2]; omega
  show V m c main_arg4 (((cfg0.win 4).blk t).view.emb (ix2 p k)) = m ((c : Thread nD τ).loc main_arg4) (ix2 (rowAt t p) k)
  rw [h, V_main_arg4 m c]

/-- What the region finds in window 5's array: argument 5 reshaped to one row. -/
theorem found_row5 (c : Dev nD) :
    (V m c main_v8 : S1x1024.Idx → EReal) = shapeCast S1x1024 (m ((c : Thread nD τ).loc main_arg5)) shapeCasts_S1024_S1x1024 := by
  dsimp only [Gen.V, Gen.hostOps0]; after_results; rfl

/-- The one row of window 5's block is argument 5, channel by channel, at every point. -/
theorem row_in5 (c : Dev nD) (t : Fin cfg0.N) :
    Body.vecOf (iblk m c 5 t) = vecOf (m ((c : Thread nD τ).loc main_arg5)) := by
  funext k
  have h : ((cfg0.win 5).blk t).view.emb (ix2 (0 : Fin 1) k) = ix2 (0 : Fin 1) k := by
    have e := idx5 t
    funext a; apply Fin.ext
    match a with
    | ⟨0, _⟩ => show win0_5.index t (0 : Fin 2) * 1 + 1 * 0 = 0; rw [e.1]
    | ⟨1, _⟩ => show win0_5.index t (1 : Fin 2) * 1024 + 1 * k.val = k.val; rw [e.2]; omega
  show V m c main_v8 (((cfg0.win 5).blk t).view.emb (ix2 (0 : Fin 1) k)) = m ((c : Thread nD τ).loc main_arg5) (ix1 k)
  rw [h]
  exact (congrFun (found_row5 m c) (ix2 (0 : Fin 1) k)).trans (shapeCast_a_1a_apply _ shapeCasts_S1024_S1x1024 0 k)

/-- What the region finds in window 6's array: argument 6 reshaped to one row. -/
theorem found_row6 (c : Dev nD) :
    (V m c main_v9 : S1x1024.Idx → EReal) = shapeCast S1x1024 (m ((c : Thread nD τ).loc main_arg6)) shapeCasts_S1024_S1x1024 := by
  dsimp only [Gen.V, Gen.hostOps0]; after_results; rfl

/-- The one row of window 6's block is argument 6, channel by channel, at every point. -/
theorem row_in6 (c : Dev nD) (t : Fin cfg0.N) :
    Body.vecOf (iblk m c 6 t) = vecOf (m ((c : Thread nD τ).loc main_arg6)) := by
  funext k
  have h : ((cfg0.win 6).blk t).view.emb (ix2 (0 : Fin 1) k) = ix2 (0 : Fin 1) k := by
    have e := idx6 t
    funext a; apply Fin.ext
    match a with
    | ⟨0, _⟩ => show win0_6.index t (0 : Fin 2) * 1 + 1 * 0 = 0; rw [e.1]
    | ⟨1, _⟩ => show win0_6.index t (1 : Fin 2) * 1024 + 1 * k.val = k.val; rw [e.2]; omega
  show V m c main_v9 (((cfg0.win 6).blk t).view.emb (ix2 (0 : Fin 1) k)) = m ((c : Thread nD τ).loc main_arg6) (ix1 k)
  rw [h]
  exact (congrFun (found_row6 m c) (ix2 (0 : Fin 1) k)).trans (shapeCast_a_1a_apply _ shapeCasts_S1024_S1x1024 0 k)

/-- What the region finds in window 7's array: argument 7 reshaped to one row. -/
theorem found_row7 (c : Dev nD) :
    (V m c main_v10 : S1x1024.Idx → EReal) = shapeCast S1x1024 (m ((c : Thread nD τ).loc main_arg7)) shapeCasts_S1024_S1x1024 := by
  dsimp only [Gen.V, Gen.hostOps0]; after_results; rfl

/-- The one row of window 7's block is argument 7, channel by channel, at every point. -/
theorem row_in7 (c : Dev nD) (t : Fin cfg0.N) :
    Body.vecOf (iblk m c 7 t) = vecOf (m ((c : Thread nD τ).loc main_arg7)) := by
  funext k
  have h : ((cfg0.win 7).blk t).view.emb (ix2 (0 : Fin 1) k) = ix2 (0 : Fin 1) k := by
    have e := idx7 t
    funext a; apply Fin.ext
    match a with
    | ⟨0, _⟩ => show win0_7.index t (0 : Fin 2) * 1 + 1 * 0 = 0; rw [e.1]
    | ⟨1, _⟩ => show win0_7.index t (1 : Fin 2) * 1024 + 1 * k.val = k.val; rw [e.2]; omega
  show V m c main_v10 (((cfg0.win 7).blk t).view.emb (ix2 (0 : Fin 1) k)) = m ((c : Thread nD τ).loc main_arg7) (ix1 k)
  rw [h]
  exact (congrFun (found_row7 m c) (ix2 (0 : Fin 1) k)).trans (shapeCast_a_1a_apply _ shapeCasts_S1024_S1x1024 0 k)

/-- What the region finds in window 8's array: argument 8 reshaped to one row. -/
theorem found_row8 (c : Dev nD) :
    (V m c main_v11 : S1x1024.Idx → EReal) = shapeCast S1x1024 (m ((c : Thread nD τ).loc main_arg8)) shapeCasts_S1024_S1x1024 := by
  dsimp only [Gen.V, Gen.hostOps0]; after_results; rfl

/-- The one row of window 8's block is argument 8, channel by channel, at every point. -/
theorem row_in8 (c : Dev nD) (t : Fin cfg0.N) :
    Body.vecOf (iblk m c 8 t) = vecOf (m ((c : Thread nD τ).loc main_arg8)) := by
  funext k
  have h : ((cfg0.win 8).blk t).view.emb (ix2 (0 : Fin 1) k) = ix2 (0 : Fin 1) k := by
    have e := idx8 t
    funext a; apply Fin.ext
    match a with
    | ⟨0, _⟩ => show win0_8.index t (0 : Fin 2) * 1 + 1 * 0 = 0; rw [e.1]
    | ⟨1, _⟩ => show win0_8.index t (1 : Fin 2) * 1024 + 1 * k.val = k.val; rw [e.2]; omega
  show V m c main_v11 (((cfg0.win 8).blk t).view.emb (ix2 (0 : Fin 1) k)) = m ((c : Thread nD τ).loc main_arg8) (ix1 k)
  rw [h]
  exact (congrFun (found_row8 m c) (ix2 (0 : Fin 1) k)).trans (shapeCast_a_1a_apply _ shapeCasts_S1024_S1x1024 0 k)

/-- What the region finds in window 9's array: argument 9 reshaped to one row. -/
theorem found_row9 (c : Dev nD) :
    (V m c main_v12 : S1x1024.Idx → EReal) = shapeCast S1x1024 (m ((c : Thread nD τ).loc main_arg9)) shapeCasts_S1024_S1x1024 := by
  dsimp only [Gen.V, Gen.hostOps0]; after_results; rfl

/-- The one row of window 9's block is argument 9, channel by channel, at every point. -/
theorem row_in9 (c : Dev nD) (t : Fin cfg0.N) :
    Body.vecOf (iblk m c 9 t) = vecOf (m ((c : Thread nD τ).loc main_arg9)) := by
  funext k
  have h : ((cfg0.win 9).blk t).view.emb (ix2 (0 : Fin 1) k) = ix2 (0 : Fin 1) k := by
    have e := idx9 t
    funext a; apply Fin.ext
    match a with
    | ⟨0, _⟩ => show win0_9.index t (0 : Fin 2) * 1 + 1 * 0 = 0; rw [e.1]
    | ⟨1, _⟩ => show win0_9.index t (1 : Fin 2) * 1024 + 1 * k.val = k.val; rw [e.2]; omega
  show V m c main_v12 (((cfg0.win 9).blk t).view.emb (ix2 (0 : Fin 1) k)) = m ((c : Thread nD τ).loc main_arg9) (ix1 k)
  rw [h]
  exact (congrFun (found_row9 m c) (ix2 (0 : Fin 1) k)).trans (shapeCast_a_1a_apply _ shapeCasts_S1024_S1x1024 0 k)

/-- What the region finds in window 10's array: argument 10 transposed (and narrowed). -/
theorem found_layer10 (c : Dev nD) :
    (V m c main_v1 : S1024x1024.Idx → EReal)
      = truncf (F := Ideal) .bf16 (transpose S1024x1024 [1, 0] (m ((c : Thread nD τ).loc main_arg10)) transposes_S1024x1024_S1024x1024_1_0) bitsLt_bf16_f32 := by
  dsimp only [Gen.V, Gen.hostOps0]; after_results

/-- Window 10's block at `(k, q)` is argument 10 at `(q, k)`, at every point. -/
theorem layer_in10 (c : Dev nD) (t : Fin cfg0.N) :
    Body.linOf (iblk m c 10 t) = linOf (m ((c : Thread nD τ).loc main_arg10)) := by
  funext k q
  have h : ((cfg0.win 10).blk t).view.emb (ix2 k q) = ix2 k q := by
    have e := idx10 t
    funext a; apply Fin.ext
    match a with
    | ⟨0, _⟩ => show win0_10.index t (0 : Fin 2) * 1024 + 1 * k.val = k.val; rw [e.1]; omega
    | ⟨1, _⟩ => show win0_10.index t (1 : Fin 2) * 1024 + 1 * q.val = q.val; rw [e.2]; omega
  show V m c main_v1 (((cfg0.win 10).blk t).view.emb (ix2 k q)) = m ((c : Thread nD τ).loc main_arg10) (ix2 q k)
  rw [h]
  refine (congrFun (found_layer10 m c) (ix2 k q)).trans ?_
  exact transpose_apply [1, 0] (m ((c : Thread nD τ).loc main_arg10)) transposes_S1024x1024_S1024x1024_1_0 (ix2 k q) (ix2 q k)
    (fun b => match b with | ⟨0, _⟩ => rfl | ⟨1, _⟩ => rfl)

/-- What the region finds in window 11's array: argument 11 transposed (and narrowed). -/
theorem found_layer11 (c : Dev nD) :
    (V m c main_v3 : S1024x1024.Idx → EReal)
      = truncf (F := Ideal) .bf16 (transpose S1024x1024 [1, 0] (m ((c : Thread nD τ).loc main_arg11)) transposes_S1024x1024_S1024x1024_1_0) bitsLt_bf16_f32 := by
  dsimp only [Gen.V, Gen.hostOps0]; after_results

/-- Window 11's block at `(k, q)` is argument 11 at `(q, k)`, at every point. -/
theorem layer_in11 (c : Dev nD) (t : Fin cfg0.N) :
    Body.linOf (iblk m c 11 t) = linOf (m ((c : Thread nD τ).loc main_arg11)) := by
  funext k q
  have h : ((cfg0.win 11).blk t).view.emb (ix2 k q) = ix2 k q := by
    have e := idx11 t
    funext a; apply Fin.ext
    match a with
    | ⟨0, _⟩ => show win0_11.index t (0 : Fin 2) * 1024 + 1 * k.val = k.val; rw [e.1]; omega
    | ⟨1, _⟩ => show win0_11.index t (1 : Fin 2) * 1024 + 1 * q.val = q.val; rw [e.2]; omega
  show V m c main_v3 (((cfg0.win 11).blk t).view.emb (ix2 k q)) = m ((c : Thread nD τ).loc main_arg11) (ix2 q k)
  rw [h]
  refine (congrFun (found_layer11 m c) (ix2 k q)).trans ?_
  exact transpose_apply [1, 0] (m ((c : Thread nD τ).loc main_arg11)) transposes_S1024x1024_S1024x1024_1_0 (ix2 k q) (ix2 q k)
    (fun b => match b with | ⟨0, _⟩ => rfl | ⟨1, _⟩ => rfl)

/-- What the region finds in window 12's array: argument 12 transposed (and narrowed). -/
theorem found_layer12 (c : Dev nD) :
    (V m c main_v5 : S1024x1024.Idx → EReal)
      = truncf (F := Ideal) .bf16 (transpose S1024x1024 [1, 0] (m ((c : Thread nD τ).loc main_arg12)) transposes_S1024x1024_S1024x1024_1_0) bitsLt_bf16_f32 := by
  dsimp only [Gen.V, Gen.hostOps0]; after_results

/-- Window 12's block at `(k, q)` is argument 12 at `(q, k)`, at every point. -/
theorem layer_in12 (c : Dev nD) (t : Fin cfg0.N) :
    Body.linOf (iblk m c 12 t) = linOf (m ((c : Thread nD τ).loc main_arg12)) := by
  funext k q
  have h : ((cfg0.win 12).blk t).view.emb (ix2 k q) = ix2 k q := by
    have e := idx12 t
    funext a; apply Fin.ext
    match a with
    | ⟨0, _⟩ => show win0_12.index t (0 : Fin 2) * 1024 + 1 * k.val = k.val; rw [e.1]; omega
    | ⟨1, _⟩ => show win0_12.index t (1 : Fin 2) * 1024 + 1 * q.val = q.val; rw [e.2]; omega
  show V m c main_v5 (((cfg0.win 12).blk t).view.emb (ix2 k q)) = m ((c : Thread nD τ).loc main_arg12) (ix2 q k)
  rw [h]
  refine (congrFun (found_layer12 m c) (ix2 k q)).trans ?_
  exact transpose_apply [1, 0] (m ((c : Thread nD τ).loc main_arg12)) transposes_S1024x1024_S1024x1024_1_0 (ix2 k q) (ix2 q k)
    (fun b => match b with | ⟨0, _⟩ => rfl | ⟨1, _⟩ => rfl)

/-- What the region finds in window 13's array: argument 13 transposed (and narrowed). -/
theorem found_layer13 (c : Dev nD) :
    (V m c main_v7 : S1024x1024.Idx → EReal)
      = truncf (F := Ideal) .bf16 (transpose S1024x1024 [1, 0] (m ((c : Thread nD τ).loc main_arg13)) transposes_S1024x1024_S1024x1024_1_0) bitsLt_bf16_f32 := by
  dsimp only [Gen.V, Gen.hostOps0]; after_results

/-- Window 13's block at `(k, q)` is argument 13 at `(q, k)`, at every point. -/
theorem layer_in13 (c : Dev nD) (t : Fin cfg0.N) :
    Body.linOf (iblk m c 13 t) = linOf (m ((c : Thread nD τ).loc main_arg13)) := by
  funext k q
  have h : ((cfg0.win 13).blk t).view.emb (ix2 k q) = ix2 k q := by
    have e := idx13 t
    funext a; apply Fin.ext
    match a with
    | ⟨0, _⟩ => show win0_13.index t (0 : Fin 2) * 1024 + 1 * k.val = k.val; rw [e.1]; omega
    | ⟨1, _⟩ => show win0_13.index t (1 : Fin 2) * 1024 + 1 * q.val = q.val; rw [e.2]; omega
  show V m c main_v7 (((cfg0.win 13).blk t).view.emb (ix2 k q)) = m ((c : Thread nD τ).loc main_arg13) (ix2 q k)
  rw [h]
  refine (congrFun (found_layer13 m c) (ix2 k q)).trans ?_
  exact transpose_apply [1, 0] (m ((c : Thread nD τ).loc main_arg13)) transposes_S1024x1024_S1024x1024_1_0 (ix2 k q) (ix2 q k)
    (fun b => match b with | ⟨0, _⟩ => rfl | ⟨1, _⟩ => rfl)

/-! ## The four result arrays as functions of the arguments -/

/-- The output array. -/
abbrev outG (c : Dev nD) : S16384x1024.Idx → EReal :=
  TimeMix.outArr (batchOf (m ((c : Thread nD τ).loc main_arg0))) (batchOf (m ((c : Thread nD τ).loc main_arg1))) (batchOf (m ((c : Thread nD τ).loc main_arg2))) (batchOf (m ((c : Thread nD τ).loc main_arg3))) (batchOf (m ((c : Thread nD τ).loc main_arg4)))
    (vecOf (m ((c : Thread nD τ).loc main_arg6))) (vecOf (m ((c : Thread nD τ).loc main_arg7))) (vecOf (m ((c : Thread nD τ).loc main_arg8))) (vecOf (m ((c : Thread nD τ).loc main_arg9)))
    (linOf (m ((c : Thread nD τ).loc main_arg10))) (linOf (m ((c : Thread nD τ).loc main_arg11))) (linOf (m ((c : Thread nD τ).loc main_arg12))) (linOf (m ((c : Thread nD τ).loc main_arg13)))

/-- The next numerator. -/
abbrev numG (c : Dev nD) : S16384x1024.Idx → EReal :=
  TimeMix.numArr (batchOf (m ((c : Thread nD τ).loc main_arg0))) (batchOf (m ((c : Thread nD τ).loc main_arg1))) (batchOf (m ((c : Thread nD τ).loc main_arg2))) (batchOf (m ((c : Thread nD τ).loc main_arg4)))
    (vecOf (m ((c : Thread nD τ).loc main_arg5))) (vecOf (m ((c : Thread nD τ).loc main_arg7))) (vecOf (m ((c : Thread nD τ).loc main_arg8))) (linOf (m ((c : Thread nD τ).loc main_arg10))) (linOf (m ((c : Thread nD τ).loc main_arg11)))

/-- The next denominator. -/
abbrev denG (c : Dev nD) : S16384x1024.Idx → EReal :=
  TimeMix.denArr (batchOf (m ((c : Thread nD τ).loc main_arg0))) (batchOf (m ((c : Thread nD τ).loc main_arg1))) (batchOf (m ((c : Thread nD τ).loc main_arg3))) (batchOf (m ((c : Thread nD τ).loc main_arg4)))
    (vecOf (m ((c : Thread nD τ).loc main_arg5))) (vecOf (m ((c : Thread nD τ).loc main_arg7))) (linOf (m ((c : Thread nD τ).loc main_arg10)))

/-- The next exponent. -/
abbrev expG (c : Dev nD) : S16384x1024.Idx → EReal :=
  TimeMix.expArr (batchOf (m ((c : Thread nD τ).loc main_arg0))) (batchOf (m ((c : Thread nD τ).loc main_arg1))) (batchOf (m ((c : Thread nD τ).loc main_arg4)))
    (vecOf (m ((c : Thread nD τ).loc main_arg5))) (vecOf (m ((c : Thread nD τ).loc main_arg7))) (linOf (m ((c : Thread nD τ).loc main_arg10)))

/-! ## Result window 14: the output -/

/-- Entry `(p, q)` of point `t`'s block of result window 14 is entry `(128·t + p, q)` of the array. -/
theorem emb_out14 (t : Fin cfg0.N) (p : Fin 128) (q : Fin 1024) :
    ((cfg0.win 14).blk t).view.emb (ix2 p q) = ix2 (rowAt t p) q := by
  have e := idx14 t
  funext a; apply Fin.ext
  match a with
  | ⟨0, _⟩ => show win0_14.index t (0 : Fin 2) * 128 + 1 * p.val = t.val * 128 + p.val; rw [e.1]; omega
  | ⟨1, _⟩ => show win0_14.index t (1 : Fin 2) * 1024 + 1 * q.val = q.val; rw [e.2]; omega

/-- What point `t` writes back to result window 14 is block `t` of the output as a function of the arguments. -/
theorem flushed14_eq (c : Dev nD) (t : Fin cfg0.N) :
    (dats m 0 c).flushed 14 t = ((cfg0.win 14).blk t).view.read (Elt Ideal) (outG m c) := by
  rw [ValueP.flushed14]
  unfold out0_14
  rw [View.canon_unit_zero hz]
  simp only [View.ld_unit_zero (S := S128x1024) hz, View.ld_unit_zero (S := S1x1024) hz, View.ld_unit_zero (S := S1024x1024) hz]
  funext j
  obtain ⟨p, q, rfl⟩ : ∃ (p : Fin 128) (q : Fin 1024), j = ix2 p q := ⟨j 0, j 1, eq_ix2 j⟩
  show k0_pay14 (iblk m c 2 t) (iblk m c 3 t) (iblk m c 4 t) (k0_pay2 (iblk m c 6 t)) (k0_pay3 (iblk m c 0 t) (iblk m c 1 t) (iblk m c 7 t)) (k0_pay4 (iblk m c 0 t) (iblk m c 1 t) (iblk m c 8 t)) (k0_pay5 (iblk m c 0 t) (iblk m c 1 t) (iblk m c 9 t)) (iblk m c 10 t) (iblk m c 11 t) (iblk m c 12 t) (iblk m c 13 t) (ix2 p q)
      = outG m c (((cfg0.win 14).blk t).view.emb (ix2 p q))
  rw [emb_out14 t p q]
  refine (Body.out_block_apply (iblk m c 0 t) (iblk m c 1 t) (iblk m c 2 t) (iblk m c 3 t) (iblk m c 4 t) (iblk m c 6 t) (iblk m c 7 t) (iblk m c 8 t) (iblk m c 9 t) (iblk m c 10 t) (iblk m c 11 t) (iblk m c 12 t) (iblk m c 13 t) p q).trans ?_
  rw [batch_in0 m c t p, batch_in1 m c t p, batch_in2 m c t p, batch_in3 m c t p, batch_in4 m c t p, row_in6 m c t, row_in7 m c t, row_in8 m c t, row_in9 m c t, layer_in10 m c t, layer_in11 m c t, layer_in12 m c t, layer_in13 m c t]
  rfl

/-- An index of the array is in point `t`'s block iff each coordinate is in the block's range on its axis. -/
theorem mem_blk14 (t : Fin cfg0.N) (i : S16384x1024.Idx) :
    i ∈ ((cfg0.win 14).blk t).view.set ↔ ∀ a : Fin 2, win0_14.index t a * S128x1024.size a ≤ (i a).val ∧ (i a).val < win0_14.index t a * S128x1024.size a + S128x1024.size a := by
  show i ∈ ((View.whole main_v13_0).slice (win0_14.rect t)).set ↔ _
  rw [View.set_slice_whole, Rect.mem_set_unit]
  exact Iff.rfl

/-- Every index of the array lies in the block of the point its row selects. -/
theorem cover14 (i : S16384x1024.Idx) :
    ∃ t : Fin cfg0.N, (cfg0.win 14).flush t = true ∧ i ∈ ((cfg0.win 14).blk t).view.set := by
  have h0 : (i 0).val < 16384 := (i 0).isLt
  have h1 : (i 1).val < 1024 := (i 1).isLt
  have e := idx14 (pointOf i)
  have hp : (pointOf i).val = (i 0).val / 128 := rfl
  refine ⟨pointOf i, flush0_14 _, ?_⟩
  rw [mem_blk14]
  intro a
  match a with
  | ⟨0, _⟩ =>
    show win0_14.index (pointOf i) (0 : Fin 2) * 128 ≤ (i 0).val ∧ (i 0).val < win0_14.index (pointOf i) (0 : Fin 2) * 128 + 128
    rw [e.1, hp]; omega
  | ⟨1, _⟩ =>
    show win0_14.index (pointOf i) (1 : Fin 2) * 1024 ≤ (i 1).val ∧ (i 1).val < win0_14.index (pointOf i) (1 : Fin 2) * 1024 + 1024
    rw [e.2]; omega

/-- After the run the array of result window 14 is the output. -/
theorem final14 (c : Dev nD) : (dats m 0 c).arrAt 14 cfg0.N = outG m c :=
  (dats m 0 c).arrAt_eq_of_cover 14 (outG m c) (fun t _ => flushed14_eq m c t) cover14

/-! ## Result window 15: the next numerator -/

/-- Entry `(p, q)` of point `t`'s block of result window 15 is entry `(128·t + p, q)` of the array. -/
theorem emb_out15 (t : Fin cfg0.N) (p : Fin 128) (q : Fin 1024) :
    ((cfg0.win 15).blk t).view.emb (ix2 p q) = ix2 (rowAt t p) q := by
  have e := idx15 t
  funext a; apply Fin.ext
  match a with
  | ⟨0, _⟩ => show win0_15.index t (0 : Fin 2) * 128 + 1 * p.val = t.val * 128 + p.val; rw [e.1]; omega
  | ⟨1, _⟩ => show win0_15.index t (1 : Fin 2) * 1024 + 1 * q.val = q.val; rw [e.2]; omega

/-- What point `t` writes back to result window 15 is block `t` of the next numerator as a function of the arguments. -/
theorem flushed15_eq (c : Dev nD) (t : Fin cfg0.N) :
    (dats m 0 c).flushed 15 t = ((cfg0.win 15).blk t).view.read (Elt Ideal) (numG m c) := by
  rw [ValueP.flushed15]
  unfold out0_15
  rw [View.canon_unit_zero hz]
  simp only [View.ld_unit_zero (S := S128x1024) hz, View.ld_unit_zero (S := S1x1024) hz, View.ld_unit_zero (S := S1024x1024) hz]
  funext j
  obtain ⟨p, q, rfl⟩ : ∃ (p : Fin 128) (q : Fin 1024), j = ix2 p q := ⟨j 0, j 1, eq_ix2 j⟩
  show k0_pay12 (iblk m c 2 t) (iblk m c 4 t) (k0_pay1 (iblk m c 5 t)) (k0_pay3 (iblk m c 0 t) (iblk m c 1 t) (iblk m c 7 t)) (k0_pay4 (iblk m c 0 t) (iblk m c 1 t) (iblk m c 8 t)) (iblk m c 10 t) (iblk m c 11 t) (ix2 p q)
      = numG m c (((cfg0.win 15).blk t).view.emb (ix2 p q))
  rw [emb_out15 t p q]
  refine (Body.num_block_apply (iblk m c 0 t) (iblk m c 1 t) (iblk m c 2 t) (iblk m c 4 t) (iblk m c 5 t) (iblk m c 7 t) (iblk m c 8 t) (iblk m c 10 t) (iblk m c 11 t) p q).trans ?_
  rw [batch_in0 m c t p, batch_in1 m c t p, batch_in2 m c t p, batch_in4 m c t p, row_in5 m c t, row_in7 m c t, row_in8 m c t, layer_in10 m c t, layer_in11 m c t]
  rfl

/-- An index of the array is in point `t`'s block iff each coordinate is in the block's range on its axis. -/
theorem mem_blk15 (t : Fin cfg0.N) (i : S16384x1024.Idx) :
    i ∈ ((cfg0.win 15).blk t).view.set ↔ ∀ a : Fin 2, win0_15.index t a * S128x1024.size a ≤ (i a).val ∧ (i a).val < win0_15.index t a * S128x1024.size a + S128x1024.size a := by
  show i ∈ ((View.whole main_v13_1).slice (win0_15.rect t)).set ↔ _
  rw [View.set_slice_whole, Rect.mem_set_unit]
  exact Iff.rfl

/-- Every index of the array lies in the block of the point its row selects. -/
theorem cover15 (i : S16384x1024.Idx) :
    ∃ t : Fin cfg0.N, (cfg0.win 15).flush t = true ∧ i ∈ ((cfg0.win 15).blk t).view.set := by
  have h0 : (i 0).val < 16384 := (i 0).isLt
  have h1 : (i 1).val < 1024 := (i 1).isLt
  have e := idx15 (pointOf i)
  have hp : (pointOf i).val = (i 0).val / 128 := rfl
  refine ⟨pointOf i, flush0_15 _, ?_⟩
  rw [mem_blk15]
  intro a
  match a with
  | ⟨0, _⟩ =>
    show win0_15.index (pointOf i) (0 : Fin 2) * 128 ≤ (i 0).val ∧ (i 0).val < win0_15.index (pointOf i) (0 : Fin 2) * 128 + 128
    rw [e.1, hp]; omega
  | ⟨1, _⟩ =>
    show win0_15.index (pointOf i) (1 : Fin 2) * 1024 ≤ (i 1).val ∧ (i 1).val < win0_15.index (pointOf i) (1 : Fin 2) * 1024 + 1024
    rw [e.2]; omega

/-- After the run the array of result window 15 is the next numerator. -/
theorem final15 (c : Dev nD) : (dats m 0 c).arrAt 15 cfg0.N = numG m c :=
  (dats m 0 c).arrAt_eq_of_cover 15 (numG m c) (fun t _ => flushed15_eq m c t) cover15

/-! ## Result window 16: the next denominator -/

/-- Entry `(p, q)` of point `t`'s block of result window 16 is entry `(128·t + p, q)` of the array. -/
theorem emb_out16 (t : Fin cfg0.N) (p : Fin 128) (q : Fin 1024) :
    ((cfg0.win 16).blk t).view.emb (ix2 p q) = ix2 (rowAt t p) q := by
  have e := idx16 t
  funext a; apply Fin.ext
  match a with
  | ⟨0, _⟩ => show win0_16.index t (0 : Fin 2) * 128 + 1 * p.val = t.val * 128 + p.val; rw [e.1]; omega
  | ⟨1, _⟩ => show win0_16.index t (1 : Fin 2) * 1024 + 1 * q.val = q.val; rw [e.2]; omega

/-- What point `t` writes back to result window 16 is block `t` of the next denominator as a function of the arguments. -/
theorem flushed16_eq (c : Dev nD) (t : Fin cfg0.N) :
    (dats m 0 c).flushed 16 t = ((cfg0.win 16).blk t).view.read (Elt Ideal) (denG m c) := by
  rw [ValueP.flushed16]
  unfold out0_16
  rw [View.canon_unit_zero hz]
  simp only [View.ld_unit_zero (S := S128x1024) hz, View.ld_unit_zero (S := S1x1024) hz, View.ld_unit_zero (S := S1024x1024) hz]
  funext j
  obtain ⟨p, q, rfl⟩ : ∃ (p : Fin 128) (q : Fin 1024), j = ix2 p q := ⟨j 0, j 1, eq_ix2 j⟩
  show k0_pay13 (iblk m c 3 t) (iblk m c 4 t) (k0_pay1 (iblk m c 5 t)) (k0_pay3 (iblk m c 0 t) (iblk m c 1 t) (iblk m c 7 t)) (iblk m c 10 t) (ix2 p q)
      = denG m c (((cfg0.win 16).blk t).view.emb (ix2 p q))
  rw [emb_out16 t p q]
  refine (Body.den_block_apply (iblk m c 0 t) (iblk m c 1 t) (iblk m c 3 t) (iblk m c 4 t) (iblk m c 5 t) (iblk m c 7 t) (iblk m c 10 t) p q).trans ?_
  rw [batch_in0 m c t p, batch_in1 m c t p, batch_in3 m c t p, batch_in4 m c t p, row_in5 m c t, row_in7 m c t, layer_in10 m c t]
  rfl

/-- An index of the array is in point `t`'s block iff each coordinate is in the block's range on its axis. -/
theorem mem_blk16 (t : Fin cfg0.N) (i : S16384x1024.Idx) :
    i ∈ ((cfg0.win 16).blk t).view.set ↔ ∀ a : Fin 2, win0_16.index t a * S128x1024.size a ≤ (i a).val ∧ (i a).val < win0_16.index t a * S128x1024.size a + S128x1024.size a := by
  show i ∈ ((View.whole main_v13_2).slice (win0_16.rect t)).set ↔ _
  rw [View.set_slice_whole, Rect.mem_set_unit]
  exact Iff.rfl

/-- Every index of the array lies in the block of the point its row selects. -/
theorem cover16 (i : S16384x1024.Idx) :
    ∃ t : Fin cfg0.N, (cfg0.win 16).flush t = true ∧ i ∈ ((cfg0.win 16).blk t).view.set := by
  have h0 : (i 0).val < 16384 := (i 0).isLt
  have h1 : (i 1).val < 1024 := (i 1).isLt
  have e := idx16 (pointOf i)
  have hp : (pointOf i).val = (i 0).val / 128 := rfl
  refine ⟨pointOf i, flush0_16 _, ?_⟩
  rw [mem_blk16]
  intro a
  match a with
  | ⟨0, _⟩ =>
    show win0_16.index (pointOf i) (0 : Fin 2) * 128 ≤ (i 0).val ∧ (i 0).val < win0_16.index (pointOf i) (0 : Fin 2) * 128 + 128
    rw [e.1, hp]; omega
  | ⟨1, _⟩ =>
    show win0_16.index (pointOf i) (1 : Fin 2) * 1024 ≤ (i 1).val ∧ (i 1).val < win0_16.index (pointOf i) (1 : Fin 2) * 1024 + 1024
    rw [e.2]; omega

/-- After the run the array of result window 16 is the next denominator. -/
theorem final16 (c : Dev nD) : (dats m 0 c).arrAt 16 cfg0.N = denG m c :=
  (dats m 0 c).arrAt_eq_of_cover 16 (denG m c) (fun t _ => flushed16_eq m c t) cover16

/-! ## Result window 17: the next exponent -/

/-- Entry `(p, q)` of point `t`'s block of result window 17 is entry `(128·t + p, q)` of the array. -/
theorem emb_out17 (t : Fin cfg0.N) (p : Fin 128) (q : Fin 1024) :
    ((cfg0.win 17).blk t).view.emb (ix2 p q) = ix2 (rowAt t p) q := by
  have e := idx17 t
  funext a; apply Fin.ext
  match a with
  | ⟨0, _⟩ => show win0_17.index t (0 : Fin 2) * 128 + 1 * p.val = t.val * 128 + p.val; rw [e.1]; omega
  | ⟨1, _⟩ => show win0_17.index t (1 : Fin 2) * 1024 + 1 * q.val = q.val; rw [e.2]; omega

/-- What point `t` writes back to result window 17 is block `t` of the next exponent as a function of the arguments. -/
theorem flushed17_eq (c : Dev nD) (t : Fin cfg0.N) :
    (dats m 0 c).flushed 17 t = ((cfg0.win 17).blk t).view.read (Elt Ideal) (expG m c) := by
  rw [ValueP.flushed17]
  unfold out0_17
  rw [View.canon_unit_zero hz]
  simp only [View.ld_unit_zero (S := S128x1024) hz, View.ld_unit_zero (S := S1x1024) hz, View.ld_unit_zero (S := S1024x1024) hz]
  funext j
  obtain ⟨p, q, rfl⟩ : ∃ (p : Fin 128) (q : Fin 1024), j = ix2 p q := ⟨j 0, j 1, eq_ix2 j⟩
  show k0_pay9 (iblk m c 4 t) (k0_pay1 (iblk m c 5 t)) (k0_pay3 (iblk m c 0 t) (iblk m c 1 t) (iblk m c 7 t)) (iblk m c 10 t) (ix2 p q)
      = expG m c (((cfg0.win 17).blk t).view.emb (ix2 p q))
  rw [emb_out17 t p q]
  refine (Body.exp_block_apply (iblk m c 0 t) (iblk m c 1 t) (iblk m c 4 t) (iblk m c 5 t) (iblk m c 7 t) (iblk m c 10 t) p q).trans ?_
  rw [batch_in0 m c t p, batch_in1 m c t p, batch_in4 m c t p, row_in5 m c t, row_in7 m c t, layer_in10 m c t]
  rfl

/-- An index of the array is in point `t`'s block iff each coordinate is in the block's range on its axis. -/
theorem mem_blk17 (t : Fin cfg0.N) (i : S16384x1024.Idx) :
    i ∈ ((cfg0.win 17).blk t).view.set ↔ ∀ a : Fin 2, win0_17.index t a * S128x1024.size a ≤ (i a).val ∧ (i a).val < win0_17.index t a * S128x1024.size a + S128x1024.size a := by
  show i ∈ ((View.whole main_v13_3).slice (win0_17.rect t)).set ↔ _
  rw [View.set_slice_whole, Rect.mem_set_unit]
  exact Iff.rfl

/-- Every index of the array lies in the block of the point its row selects. -/
theorem cover17 (i : S16384x1024.Idx) :
    ∃ t : Fin cfg0.N, (cfg0.win 17).flush t = true ∧ i ∈ ((cfg0.win 17).blk t).view.set := by
  have h0 : (i 0).val < 16384 := (i 0).isLt
  have h1 : (i 1).val < 1024 := (i 1).isLt
  have e := idx17 (pointOf i)
  have hp : (pointOf i).val = (i 0).val / 128 := rfl
  refine ⟨pointOf i, flush0_17 _, ?_⟩
  rw [mem_blk17]
  intro a
  match a with
  | ⟨0, _⟩ =>
    show win0_17.index (pointOf i) (0 : Fin 2) * 128 ≤ (i 0).val ∧ (i 0).val < win0_17.index (pointOf i) (0 : Fin 2) * 128 + 128
    rw [e.1, hp]; omega
  | ⟨1, _⟩ =>
    show win0_17.index (pointOf i) (1 : Fin 2) * 1024 ≤ (i 1).val ∧ (i 1).val < win0_17.index (pointOf i) (1 : Fin 2) * 1024 + 1024
    rw [e.2]; omega

/-- After the run the array of result window 17 is the next exponent. -/
theorem final17 (c : Dev nD) : (dats m 0 c).arrAt 17 cfg0.N = expG m c :=
  (dats m 0 c).arrAt_eq_of_cover 17 (expG m c) (fun t _ => flushed17_eq m c t) cover17

/-! ## The run, read -/

/-- Every weakly fair execution of the kernel's program ends with its four result arrays at these functions of the
    arguments, and the arguments unchanged. -/
theorem run : θ_run defs (onTc (τ := τ) (main (F := Ideal))) ⟨m, fun _ => 0, ρ⟩ fun r => ∀ c : Dev nD,
      r.2.mem ((c : Thread nD τ).loc main_v13_0) = outG m c
      ∧ r.2.mem ((c : Thread nD τ).loc main_v13_1) = numG m c
      ∧ r.2.mem ((c : Thread nD τ).loc main_v13_2) = denG m c
      ∧ r.2.mem ((c : Thread nD τ).loc main_v13_3) = expG m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final14 m c), (h c).2.1.trans (final15 m c),
      (h c).2.2.1.trans (final16 m c), (h c).2.2.2.1.trans (final17 m c), (h c).2.2.2.2⟩)
    (ValueP.run_blocks m ρ)

end Cert.KernelIdeal.Arrays

end
-- ==== Proof.RefValue.lean ====
/-
  The reference program's four results, read entry by entry at the extended reals.

  The reference works on whole arrays: each per-channel vector is broadcast over the batch, each weight matrix is
  transposed and contracted with a whole mixed array, and the logistic function is spelt `1 / (1 + e^(−r))`. Entry
  `(r, q)` of every intermediate array depends on row `r` of the five batch arrays only, and is the row statement of
  `TimeMix` at that row, with the layer `w k q` read off the untransposed matrix at `(q, k)`.
-/
import proofs.«117996_j16183436772029_1_alg».proof.Proof.Gen.ReferenceIdeal.Read
import proofs.«117996_j16183436772029_1_alg».proof.Proof.TimeMix
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx

/-- A batch array. -/
abbrev Arr := (⟨S16384x1024, .f32⟩ : BufTy).Contents (Elt Ideal)
/-- A per-channel vector. -/
abbrev Vc := (⟨S1024, .f32⟩ : BufTy).Contents (Elt Ideal)
/-- A weight matrix, `W (q, k)` the weight from channel `k` to channel `q`. -/
abbrev Mt := (⟨S1024x1024, .f32⟩ : BufTy).Contents (Elt Ideal)

/-- A batch array by coordinates. -/
abbrev batchOf (X : Arr) : TimeMix.Batch := fun r k => X (ix2 r k)
/-- A per-channel vector by its channel. -/
abbrev vecOf (t : Vc) : TimeMix.Row := fun k => t (ix1 k)
/-- A weight matrix as the layer it defines: the transpose, by coordinates. -/
abbrev linOf (W : Mt) : TimeMix.Lin := fun k q => W (ix2 q k)

/-- The reference's spelling of the logistic function, over the word for one. -/
theorem sigmoid_spelt (z : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf z)))
      = Ideal.logistic z :=
  TimeMix.logistic_spelt z

/-- The row mixed for the key, at `(r, k)`. -/
theorem mixed_key (x0 x1 : Arr) (x7 : Vc) (r : Fin 16384) (k : Fin 1024) :
    val_main_v8 (F := Ideal) x0 x1 x7 (ix2 r k) = TimeMix.mix (x0 (ix2 r k)) (x1 (ix2 r k)) (x7 (ix1 k)) := by
  have e0 : idx_main_v0 (idx_main_v1 (ix2 r k)) = ix1 k := by funext a; apply Fin.ext; match a with | ⟨0, _⟩ => rfl
  have e1 : idx_main_v5 (idx_main_v6 (ix2 r k)) = ix1 k := by funext a; apply Fin.ext; match a with | ⟨0, _⟩ => rfl
  rw [val_main_v8_apply, val_main_v2_apply, val_main_v7_apply, val_main_v1_apply, val_main_v0_apply, val_main_v6_apply, val_main_v5_apply, val_main_v4_apply,
    val_main_v3_apply, val_main_cst_apply, e0, e1]
  rfl

/-- The key at `(r, q)`: the mixed row through the transposed weight matrix. -/
theorem lin_key (x0 x1 : Arr) (x7 : Vc) (x10 : Mt) (r : Fin 16384) (q : Fin 1024) :
    val_main_v36 (F := Ideal) x0 x1 x7 x10 (ix2 r q)
      = TimeMix.lin (batchOf x0 r) (batchOf x1 r) (vecOf x7) (linOf x10) q := by
  rw [val_main_v36_apply]
  unfold TimeMix.lin
  refine Finset.sum_congr rfl fun k _ => ?_
  have el : lidx_main_v36 (ix2 r q) k = ix2 r k := by funext a; apply Fin.ext; match a with | ⟨0, _⟩ => rfl | ⟨1, _⟩ => rfl
  have er : idx_main_v35 (ridx_main_v36 (ix2 r q) k) = ix2 q k := by funext a; apply Fin.ext; match a with | ⟨0, _⟩ => rfl | ⟨1, _⟩ => rfl
  rw [el, mixed_key, val_main_v35_apply, er]

/-- The row mixed for the value, at `(r, k)`. -/
theorem mixed_value (x0 x1 : Arr) (x8 : Vc) (r : Fin 16384) (k : Fin 1024) :
    val_main_v17 (F := Ideal) x0 x1 x8 (ix2 r k) = TimeMix.mix (x0 (ix2 r k)) (x1 (ix2 r k)) (x8 (ix1 k)) := by
  have e0 : idx_main_v9 (idx_main_v10 (ix2 r k)) = ix1 k := by funext a; apply Fin.ext; match a with | ⟨0, _⟩ => rfl
  have e1 : idx_main_v14 (idx_main_v15 (ix2 r k)) = ix1 k := by funext a; apply Fin.ext; match a with | ⟨0, _⟩ => rfl
  rw [val_main_v17_apply, val_main_v11_apply, val_main_v16_apply, val_main_v10_apply, val_main_v9_apply, val_main_v15_apply, val_main_v14_apply, val_main_v13_apply,
    val_main_v12_apply, val_main_cst_0_apply, e0, e1]
  rfl

/-- The value at `(r, q)`: the mixed row through the transposed weight matrix. -/
theorem lin_value (x0 x1 : Arr) (x8 : Vc) (x11 : Mt) (r : Fin 16384) (q : Fin 1024) :
    val_main_v38 (F := Ideal) x0 x1 x8 x11 (ix2 r q)
      = TimeMix.lin (batchOf x0 r) (batchOf x1 r) (vecOf x8) (linOf x11) q := by
  rw [val_main_v38_apply]
  unfold TimeMix.lin
  refine Finset.sum_congr rfl fun k _ => ?_
  have el : lidx_main_v38 (ix2 r q) k = ix2 r k := by funext a; apply Fin.ext; match a with | ⟨0, _⟩ => rfl | ⟨1, _⟩ => rfl
  have er : idx_main_v37 (ridx_main_v38 (ix2 r q) k) = ix2 q k := by funext a; apply Fin.ext; match a with | ⟨0, _⟩ => rfl | ⟨1, _⟩ => rfl
  rw [el, mixed_value, val_main_v37_apply, er]

/-- The row mixed for the receptance, at `(r, k)`. -/
theorem mixed_recept (x0 x1 : Arr) (x9 : Vc) (r : Fin 16384) (k : Fin 1024) :
    val_main_v26 (F := Ideal) x0 x1 x9 (ix2 r k) = TimeMix.mix (x0 (ix2 r k)) (x1 (ix2 r k)) (x9 (ix1 k)) := by
  have e0 : idx_main_v18 (idx_main_v19 (ix2 r k)) = ix1 k := by funext a; apply Fin.ext; match a with | ⟨0, _⟩ => rfl
  have e1 : idx_main_v23 (idx_main_v24 (ix2 r k)) = ix1 k := by funext a; apply Fin.ext; match a with | ⟨0, _⟩ => rfl
  rw [val_main_v26_apply, val_main_v20_apply, val_main_v25_apply, val_main_v19_apply, val_main_v18_apply, val_main_v24_apply, val_main_v23_apply, val_main_v22_apply,
    val_main_v21_apply, val_main_cst_1_apply, e0, e1]
  rfl

/-- The receptance at `(r, q)`: the mixed row through the transposed weight matrix. -/
theorem lin_recept (x0 x1 : Arr) (x9 : Vc) (x12 : Mt) (r : Fin 16384) (q : Fin 1024) :
    val_main_v28 (F := Ideal) x0 x1 x9 x12 (ix2 r q)
      = TimeMix.lin (batchOf x0 r) (batchOf x1 r) (vecOf x9) (linOf x12) q := by
  rw [val_main_v28_apply]
  unfold TimeMix.lin
  refine Finset.sum_congr rfl fun k _ => ?_
  have el : lidx_main_v28 (ix2 r q) k = ix2 r k := by funext a; apply Fin.ext; match a with | ⟨0, _⟩ => rfl | ⟨1, _⟩ => rfl
  have er : idx_main_v27 (ridx_main_v28 (ix2 r q) k) = ix2 q k := by funext a; apply Fin.ext; match a with | ⟨0, _⟩ => rfl | ⟨1, _⟩ => rfl
  rw [el, mixed_recept, val_main_v27_apply, er]

/-- The decayed exponent at `(r, q)`. -/
theorem decayed (x4 : Arr) (x5 : Vc) (r : Fin 16384) (q : Fin 1024) :
    val_main_v55 (F := Ideal) x4 x5 (ix2 r q) = x4 (ix2 r q) + x5 (ix1 q) := by
  have e : idx_main_v53 (idx_main_v54 (ix2 r q)) = ix1 q := by funext a; apply Fin.ext; match a with | ⟨0, _⟩ => rfl
  rw [val_main_v55_apply, val_main_v54_apply, val_main_v53_apply, e]
  rfl

/-- The first-step exponent at `(r, q)`: the bonus plus the key. -/
theorem bonus (x0 x1 : Arr) (x6 x7 : Vc) (x10 : Mt) (r : Fin 16384) (q : Fin 1024) :
    val_main_v41 (F := Ideal) x0 x1 x6 x7 x10 (ix2 r q)
      = x6 (ix1 q) + TimeMix.lin (batchOf x0 r) (batchOf x1 r) (vecOf x7) (linOf x10) q := by
  have e : idx_main_v39 (idx_main_v40 (ix2 r q)) = ix1 q := by funext a; apply Fin.ext; match a with | ⟨0, _⟩ => rfl
  rw [val_main_v41_apply, val_main_v40_apply, val_main_v39_apply, e, lin_key]
  rfl

/-- The next exponent is the statement's, as arrays. -/
theorem exp_arr (x0 x1 x4 : Arr) (x5 x7 : Vc) (x10 : Mt) :
    val_main_v56 (F := Ideal) x0 x1 x4 x5 x7 x10
      = TimeMix.expArr (batchOf x0) (batchOf x1) (batchOf x4) (vecOf x5) (vecOf x7) (linOf x10) := by
  funext i
  obtain ⟨r, q, rfl⟩ : ∃ (r : Fin 16384) (q : Fin 1024), i = ix2 r q := ⟨i 0, i 1, eq_ix2 i⟩
  rw [val_main_v56_apply, decayed, lin_key]
  rfl

/-- The next numerator is the statement's, as arrays. -/
theorem num_arr (x0 x1 x2 x4 : Arr) (x5 x7 x8 : Vc) (x10 x11 : Mt) :
    val_main_v63 (F := Ideal) x0 x1 x2 x4 x5 x7 x8 x10 x11
      = TimeMix.numArr (batchOf x0) (batchOf x1) (batchOf x2) (batchOf x4) (vecOf x5) (vecOf x7) (vecOf x8) (linOf x10) (linOf x11) := by
  funext i
  obtain ⟨r, q, rfl⟩ : ∃ (r : Fin 16384) (q : Fin 1024), i = ix2 r q := ⟨i 0, i 1, eq_ix2 i⟩
  rw [val_main_v63_apply, val_main_v61_apply, val_main_v62_apply, val_main_v58_apply, val_main_v60_apply, val_main_v57_apply,
    val_main_v59_apply, val_main_v56_apply, decayed, lin_key, lin_value]
  rfl

/-- The next denominator is the statement's, as arrays. -/
theorem den_arr (x0 x1 x3 x4 : Arr) (x5 x7 : Vc) (x10 : Mt) :
    val_main_v65 (F := Ideal) x0 x1 x3 x4 x5 x7 x10
      = TimeMix.denArr (batchOf x0) (batchOf x1) (batchOf x3) (batchOf x4) (vecOf x5) (vecOf x7) (linOf x10) := by
  funext i
  obtain ⟨r, q, rfl⟩ : ∃ (r : Fin 16384) (q : Fin 1024), i = ix2 r q := ⟨i 0, i 1, eq_ix2 i⟩
  rw [val_main_v65_apply, val_main_v64_apply, val_main_v58_apply, val_main_v60_apply, val_main_v57_apply,
    val_main_v59_apply, val_main_v56_apply, decayed, lin_key]
  rfl

/-- The gated average at `(r, j)`. -/
theorem gated (x0 x1 x2 x3 x4 : Arr) (x6 x7 x8 x9 : Vc) (x10 x11 x12 : Mt) (r : Fin 16384) (j : Fin 1024) :
    val_main_v66 (F := Ideal) x0 x1 x2 x3 x4 x6 x7 x8 x9 x10 x11 x12 (ix2 r j)
      = TimeMix.gate (batchOf x0 r) (batchOf x1 r) (batchOf x2 r) (batchOf x3 r) (batchOf x4 r) (vecOf x6) (vecOf x7) (vecOf x8) (vecOf x9)
          (linOf x10) (linOf x11) (linOf x12) j := by
  rw [val_main_v66_apply, val_main_v34_apply, val_main_v33_apply, val_main_cst_3_apply, val_main_v32_apply, val_main_v31_apply,
    val_main_cst_2_apply, val_main_v30_apply, val_main_v29_apply, sigmoid_spelt, lin_recept,
    val_main_v52_apply, val_main_v49_apply, val_main_v51_apply, val_main_v47_apply, val_main_v48_apply, val_main_v50_apply,
    val_main_v44_apply, val_main_v46_apply, val_main_v43_apply, val_main_v45_apply, val_main_v42_apply, bonus, lin_value]
  rfl

/-- The output is the statement's, as arrays. -/
theorem out_arr (x0 x1 x2 x3 x4 : Arr) (x6 x7 x8 x9 : Vc) (x10 x11 x12 x13 : Mt) :
    val_main_v68 (F := Ideal) x0 x1 x2 x3 x4 x6 x7 x8 x9 x10 x11 x12 x13
      = TimeMix.outArr (batchOf x0) (batchOf x1) (batchOf x2) (batchOf x3) (batchOf x4) (vecOf x6) (vecOf x7) (vecOf x8) (vecOf x9)
          (linOf x10) (linOf x11) (linOf x12) (linOf x13) := by
  funext i
  obtain ⟨r, q, rfl⟩ : ∃ (r : Fin 16384) (q : Fin 1024), i = ix2 r q := ⟨i 0, i 1, eq_ix2 i⟩
  rw [val_main_v68_apply]
  show _ = TimeMix.outRow _ _ _ _ _ _ _ _ _ _ _ _ _ q
  unfold TimeMix.outRow
  refine Finset.sum_congr rfl fun j _ => ?_
  have el : lidx_main_v68 (ix2 r q) j = ix2 r j := by funext a; apply Fin.ext; match a with | ⟨0, _⟩ => rfl | ⟨1, _⟩ => rfl
  have er : idx_main_v67 (ridx_main_v68 (ix2 r q) j) = ix2 q j := by funext a; apply Fin.ext; match a with | ⟨0, _⟩ => rfl | ⟨1, _⟩ => rfl
  rw [el, gated, val_main_v67_apply, er]

end Cert.ReferenceIdeal.RefValue

end
-- ==== Proof.lean ====
/-
  The kernel and its reference compute one step of a time-mixing recurrence on a batch of 16384 rows over 1024
  channels: three mixed rows through three linear layers (key, value, receptance), an exponentially weighted average
  of the running state and the new value gated by the logistic of the receptance and sent through an output layer,
  and the next state (numerator, denominator, exponent). The kernel does this 128 rows at a time, on sixteen-bit
  copies of the mixed rows and of the pre-transposed weight matrices, with the logistic function as one operation; the
  reference does it on whole arrays, transposing each weight matrix where it is used and spelling the logistic function
  `1 / (1 + e^(−r))`.

  At the extended reals a change of float format is the identity, a matrix product into zero is the plain sum over the
  contracted channel, and the logistic function is that quotient, so both programs compute, entry by entry and in the
  same order of operations, the row statement of `Proof/TimeMix.lean`. `Proof/BodyValue.lean` reads the kernel body's
  stored blocks as that statement at a row of the blocks, `Proof/KernelArrays.lean` assembles the 128 blocks into four
  whole-array functions of the arguments, and `Proof/RefValue.lean` reads the reference's four results as the same
  functions. No step uses that the inputs are finite. The second of the five results is the first argument itself.
  The idealization of the kernel rewrote no operation, so there is nothing to preserve beyond the program's own text.
-/
import proofs.«117996_j16183436772029_1_alg».proof.Defs
import proofs.«117996_j16183436772029_1_alg».proof.Proof.Gen.Kernel
import proofs.«117996_j16183436772029_1_alg».proof.Proof.Gen.Kernel.Skeleton
import proofs.«117996_j16183436772029_1_alg».proof.Proof.Gen.Kernel.Launch
import proofs.«117996_j16183436772029_1_alg».proof.Proof.Gen.Kernel.Points
import proofs.«117996_j16183436772029_1_alg».proof.Proof.Gen.Kernel.Frame
import proofs.«117996_j16183436772029_1_alg».proof.Proof.Gen.KernelIdeal
import proofs.«117996_j16183436772029_1_alg».proof.Proof.Gen.KernelIdeal.Skeleton
import proofs.«117996_j16183436772029_1_alg».proof.Proof.Gen.KernelIdeal.Launch
import proofs.«117996_j16183436772029_1_alg».proof.Proof.Gen.KernelIdeal.Points
import proofs.«117996_j16183436772029_1_alg».proof.Proof.Gen.KernelIdeal.Frame
import proofs.«117996_j16183436772029_1_alg».proof.Proof.ValuePatched
import proofs.«117996_j16183436772029_1_alg».proof.Proof.KernelArrays
import proofs.«117996_j16183436772029_1_alg».proof.Proof.Gen.ReferenceIdeal
import proofs.«117996_j16183436772029_1_alg».proof.Proof.Gen.ReferenceIdeal.Run
import proofs.«117996_j16183436772029_1_alg».proof.Proof.Gen.ReferenceIdeal.Read
import proofs.«117996_j16183436772029_1_alg».proof.Proof.RefValue
import proofs.«117996_j16183436772029_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's run, with its five results dropped. -/
theorem frame_reference : Cert.frame_ReferenceIdeal := fun m ρ _ =>
  (θ_run Cert.ReferenceIdeal.defs _ _).mono (fun _ h c => (h c).2.2.2.2.2)
    (Cert.ReferenceIdeal.Value.run (F := Ideal) m ρ)

/-- From memories that agree on the fourteen arguments both programs end with the output, the first argument, the
    next numerator, the next denominator and the next exponent at the same functions of the arguments. -/
theorem algebraic : Cert.algebraic_KernelIdeal_ReferenceIdeal := by
  intro m ρ m' ρ' _ hagree
  refine ⟨fun c => Cert.KernelIdeal.Arrays.outG m c, fun c => m ((c.tc : Thread Cert.KernelIdeal.nD Cert.KernelIdeal.τ).loc Cert.KernelIdeal.main_arg0),
    fun c => Cert.KernelIdeal.Arrays.numG m c, fun c => Cert.KernelIdeal.Arrays.denG m c, fun c => Cert.KernelIdeal.Arrays.expG m c, ?_, ?_⟩
  · exact (θ_run Cert.KernelIdeal.defs _ _).mono
      (fun r h c => ⟨(h c).1, (h c).2.2.2.2.1, (h c).2.1, (h c).2.2.1, (h c).2.2.2.1, (h c).2.2.2.2⟩)
      (Cert.KernelIdeal.Arrays.run m ρ)
  · refine (θ_run Cert.ReferenceIdeal.defs _ _).mono (fun r h c => ?_)
      (Cert.ReferenceIdeal.Value.run (F := Ideal) m' ρ')
    obtain ⟨a0, a1, a2, a3, a4, a5, a6, a7, a8, a9, a10, a11, a12, a13⟩ := hagree c
    refine ⟨(h c).1.trans ?_, (h c).2.1.trans a0, (h c).2.2.1.trans ?_, (h c).2.2.2.1.trans ?_, (h c).2.2.2.2.1.trans ?_,
      (h c).2.2.2.2.2⟩
    · rw [Cert.ReferenceIdeal.Read.val_main_v68_eq, Cert.ReferenceIdeal.RefValue.out_arr, a0, a1, a2, a3, a4, a6, a7, a8, a9, a10, a11, a12, a13]
    · rw [Cert.ReferenceIdeal.Read.val_main_v63_eq, Cert.ReferenceIdeal.RefValue.num_arr, a0, a1, a2, a4, a5, a7, a8, a10, a11]
    · rw [Cert.ReferenceIdeal.Read.val_main_v65_eq, Cert.ReferenceIdeal.RefValue.den_arr, a0, a1, a3, a4, a5, a7, a10]
    · rw [Cert.ReferenceIdeal.Read.val_main_v56_eq, Cert.ReferenceIdeal.RefValue.exp_arr, a0, a1, a4, a5, a7, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
